-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S5000x128 : Shape := ⟨2, ![5000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 81
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000x128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S_, .f32⟩
  | .hbm, ⟨69, _⟩ => ⟨S1x128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S_, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47_0 : Ref sig .tc := ⟨.hbm, 66, rfl⟩
abbrev main_v47_1 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v57) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 96
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000x128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KRun.lean ====
import proofs.«167985_j70712341561346_1_alg».proof.Proof.Gen.KernelIdeal.Frame

/-!
# The idealized kernel's run, with the result array named

The program is three grid launches among stretches of host operations. The buffer contents at each boundary are a fold
from the launch memory: a host stretch applies its operations, a launch leaves each of its arrays at what its
write-backs leave. Every weakly fair execution terminates with the result array at the last boundary's contents and the
six argument arrays as launched.
-/

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's contents
    and the argument arrays as launched. -/
theorem run_named : θ_run defs (onTc (τ := τ) (main (F := F))) ⟨m, fun _ => 0, ρ⟩ (fun r => ∀ c : Dev nD,
      r.2.mem ((c.tc : Thread nD τ).loc main_v57) = W7 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v57 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.KRun

end
-- ==== Proof.LinearRegion.lean ====
import proofs.«167985_j70712341561346_1_alg».proof.Proof.Gen.KernelIdeal.Frame
import Idealize.ShloMosaic.Lib.Pipeline.Value
import Idealize.ShloMosaic.Lib.ValueIdx
import Idealize.ShloMosaic.PureOps.Ideal.Laws

/-!
# The linear launch

Grid point `t` of the first launch reads rows `5000 t … 5000 t + 4999` of the features `X` and the whole `[128, 128]` weight `W`,
and writes back, for the same rows, the matrix product into a zero accumulator; on the extended reals the change of format
before the product is the identity, so entry `(n, d)` of the block is `Σ k, X (n, k) · W (k, d)`. The twenty row blocks
tile the result, which therefore ends as the whole product.
-/

set_option maxRecDepth 16384

noncomputable section

namespace Cert.KernelIdeal.Linear

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The product array: entry `(n, d)` is `Σ k, X (n, k) · W (k, d)`. -/
def prodArr (X : S100000x128.Idx → EReal) (W : S128x128.Idx → EReal) : S100000x128.Idx → EReal :=
  fun i => ∑ k : Fin 128, X (ix2 (i 0) k) * W (ix2 k (i 1))

/-- The product's left operand index at output index `j`: row `j 0`. -/
theorem lhs_row (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The product's right operand index at output index `j`: column `j 1`. -/
theorem rhs_col (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product at `(p, q)`: row `p` of the row block against column `q` of the weight. -/
theorem pay_apply (x0 : FVec Ideal S5000x128 .f32) (x1 : FVec Ideal S128x128 .f32) (j : S5000x128.Idx) :
    k0_pay1 x0 x1 j = ∑ k : Fin 128, x0 (ix2 (j 0) k) * x1 (ix2 k (j 1)) := by
  have e : k0_pay1 x0 x1 = FloatOps.matmul dot_S5000x128_S128x128_S5000x128_1_0_0_1_n_n none x0 x1 (constant S5000x128 .f32 0x00000000#32) := rfl
  rw [e, Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = ix2 (j 0) k :=
    funext fun a => Fin.ext (by
      match a with
      | ⟨0, _⟩ => exact lhs_row _ _
      | ⟨1, _⟩ => exact (dot_S5000x128_S128x128_S5000x128_1_0_0_1_n_n.lhsIdx_val_of_single rfl j _).trans hk)
  have er : dot_S5000x128_S128x128_S5000x128_1_0_0_1_n_n.rhsIdx j ((ValueIdx.contrEquiv1 dot_S5000x128_S128x128_S5000x128_1_0_0_1_n_n 128 rfl rfl).symm k) = ix2 k (j 1) :=
    funext fun a => Fin.ext (by
      match a with
      | ⟨0, _⟩ => exact (dot_S5000x128_S128x128_S5000x128_1_0_0_1_n_n.rhsIdx_val_of_single rfl j _).trans hk
      | ⟨1, _⟩ => exact rhs_col _ _)
  rw [el, er]
  rfl

/-- The printed index maps over the grid: the row-blocked windows are at block `(t, 0)`, the weight at block `(0, 0)`. -/
theorem idx_facts : ∀ t : Fin cfg0.N, win0_0.index t (0 : Fin 2) = t.val ∧ win0_0.index t (1 : Fin 2) = 0
    ∧ win0_2.index t (0 : Fin 2) = t.val ∧ win0_2.index t (1 : Fin 2) = 0
    ∧ win0_1.index t (0 : Fin 2) = 0 ∧ win0_1.index t (1 : Fin 2) = 0 :=
  (by decide +kernel : ∀ t : Fin grid0.N, _)

/-- What point `t` writes back is block `t` of the product of the arrays the launch found. -/
theorem flushed_eq (c : Dev nD) (t : Fin cfg0.N) :
    (dat0 V c).flushed 2 t = ((cfg0.win 2).blk t).view.read (Elt Ideal) (prodArr (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e00, e01, e20, e21, e10, e11⟩ := idx_facts t
  funext j
  refine (pay_apply (iblk0 V c 0 t) (iblk0 V c 1 t) j).trans ?_
  have hj0 : (j 0).val < 5000 := (j 0).isLt
  have hj1 : (j 1).val < 128 := (j 1).isLt
  rw [View.read_apply]
  unfold prodArr
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have hA : iblk0 V c 0 t (ix2 (j 0) k) = V c main_arg0 (ix2 ((((cfg0.win 2).blk t).view.emb j) 0) k) := by
    unfold iblk0; rw [View.read_apply]; exact congrArg (V c main_arg0) h0
  have hB : iblk0 V c 1 t (ix2 k (j 1)) = V c main_arg2 (ix2 k ((((cfg0.win 2).blk t).view.emb j) 1)) := by
    unfold iblk0; rw [View.read_apply]; exact congrArg (V c main_arg2) h1
  rw [hA, hB]

/-- An index of the result is in point `t`'s block iff each coordinate is in the block's range. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row `n` is in the block of point `n / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e00, e01, e20, e21, -⟩ := idx_facts t
  refine ⟨t, flush0_2 t, ?_⟩
  rw [mem_blk]
  have ht : t.val = (i 0).val / 5000 := rfl
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the launch: the product of the arrays the launch found. -/
theorem final (c : Dev nD) : (dat0 V c).arrAt 2 cfg0.N = prodArr (V c main_arg0) (V c main_arg2) :=
  (dat0 V c).arrAt_eq_of_cover 2 _ (fun t _ => flushed_eq V c t) cover

end Cert.KernelIdeal.Linear

end
-- ==== Proof.ColumnStats.lean ====
import Mathlib
import Idealize.ShloMosaic.PureOps.Ideal
import Idealize.ShloMosaic.PureOps.Ideal.Laws

/-!
# Column statistics on the extended reals

Batch normalisation of one column `o : ι → EReal` of `N` entries: the mean `μ = (Σ o) / N`, a variance, and the
normalised entry `(x - μ) · rsqrt (var + ε) · w + b`. Two forms of the variance are compared: the one-pass form
`(Σ o²) / N - μ²` and the two-pass form `(Σ (o - μ)²) / N`. Over the reals they are equal because
`Σ (o - μ)² = Σ o² - 2 μ Σ o + N μ²` and `μ N = Σ o`; on the extended reals this needs every entry finite, since the
expansion of the square distributes a product over a sum. Also here: a sum over `20 · 5000` positions taken tile by tile.
-/

noncomputable section

namespace Cert.ColumnStats

open Idealize.ShloMosaic

/-- The f32 pattern `0x47C35000` (sign `0`, biased exponent `143`, fraction `0x435000`) denotes
    `(2^23 + 4411392) · 2^(143 - 127 - 23) = 12800000 / 128 = 100000`. -/
theorem ofBits_1e5 : Ideal.ofBits .f32 0x47C35000#32 = ((100000 : ℝ) : EReal) := by
  simp [Ideal.ofBits, Ideal.ieee, -EReal.coe_mul]; norm_num

/-- A finite sum of coerced reals is the coercion of the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The one-pass and the two-pass variance of `N` reals agree: with `μ = S / N`,
    `Σ (r - μ)² = Σ r² - 2 μ S + N μ² = Σ r² - S² / N`. -/
theorem real_var {ι : Type*} [Fintype ι] (N : ℝ) (hcard : (Fintype.card ι : ℝ) = N) (hN0 : N ≠ 0) (r : ι → ℝ) :
    (∑ k, r k * r k) * (1 / N) - ((∑ k, r k) * (1 / N)) * ((∑ k, r k) * (1 / N))
      = (∑ k, (r k - (∑ j, r j) * (1 / N)) * (r k - (∑ j, r j) * (1 / N))) * (1 / N) := by
  set S : ℝ := ∑ j, r j with hS
  have h1 : (∑ k, (r k - S * (1 / N)) * (r k - S * (1 / N)))
      = (∑ k, r k * r k) - 2 * (S * (1 / N)) * S + N * ((S * (1 / N)) * (S * (1 / N))) := by
    have : ∀ k, (r k - S * (1 / N)) * (r k - S * (1 / N))
        = r k * r k - 2 * (S * (1 / N)) * r k + (S * (1 / N)) * (S * (1 / N)) := fun k => by ring
    simp only [this, Finset.sum_add_distrib, Finset.sum_sub_distrib, ← Finset.mul_sum, Finset.sum_const,
      Finset.card_univ, nsmul_eq_mul, hcard, ← hS]
    ring
  rw [h1]
  field_simp
  ring

/-- The same on the extended reals, in the two programs' spellings: the quotient by `N` is `Ideal.div`, the
    reference's sums start from `0`. -/
theorem var_eq {ι : Type*} [Fintype ι] (N : ℝ) (hcard : (Fintype.card ι : ℝ) = N) (hN0 : N ≠ 0) (r : ι → ℝ) :
    Ideal.div (∑ k, (r k : EReal) * (r k : EReal)) (N : EReal)
        - Ideal.div (∑ k, (r k : EReal)) (N : EReal) * Ideal.div (∑ k, (r k : EReal)) (N : EReal)
      = Ideal.div (0 + ∑ k, ((r k : EReal) - Ideal.div (0 + ∑ j, (r j : EReal)) (N : EReal))
          * ((r k : EReal) - Ideal.div (0 + ∑ j, (r j : EReal)) (N : EReal))) (N : EReal) := by
  have hS : (∑ k, (r k : EReal)) = ((∑ k, r k : ℝ) : EReal) := coe_sum _ _
  have hQ : (∑ k, (r k : EReal) * (r k : EReal)) = ((∑ k, r k * r k : ℝ) : EReal) := by
    rw [← coe_sum]; exact Finset.sum_congr rfl fun k _ => (EReal.coe_mul _ _).symm
  rw [zero_add, zero_add, hS, hQ, Ideal.div_coe hN0, Ideal.div_coe hN0, ← EReal.coe_mul, ← EReal.coe_mul,
    ← EReal.coe_mul, ← EReal.coe_sub]
  have hD : (∑ k, ((r k : EReal) - (((∑ j, r j) * (1 / N) : ℝ) : EReal)) * ((r k : EReal) - (((∑ j, r j) * (1 / N) : ℝ) : EReal)))
      = ((∑ k, (r k - (∑ j, r j) * (1 / N)) * (r k - (∑ j, r j) * (1 / N)) : ℝ) : EReal) := by
    rw [← coe_sum]; exact Finset.sum_congr rfl fun k _ => by rw [← EReal.coe_sub, ← EReal.coe_mul]
  rw [hD, Ideal.div_coe hN0, ← EReal.coe_mul, real_var N hcard hN0 r]

/-- One entry normalised with the one-pass variance, from the column's sum `S` and sum of squares `Q`. -/
def onePass (cN e S Q x w b : EReal) : EReal :=
  ((x - Ideal.div S cN) * Ideal.rsqrt ((Ideal.div Q cN - Ideal.div S cN * Ideal.div S cN) + e)) * w + b

/-- One entry normalised with the two-pass variance, the sums taken from `z`. -/
def twoPass {ι : Type*} [Fintype ι] (z cN e : EReal) (o : ι → EReal) (x w b : EReal) : EReal :=
  ((x - Ideal.div (z + ∑ k, o k) cN)
      * Ideal.rsqrt (Ideal.div (z + ∑ k, (o k - Ideal.div (z + ∑ j, o j) cN) * (o k - Ideal.div (z + ∑ j, o j) cN)) cN + e)) * w + b

/-- On a column of finite entries the two normalisations agree. -/
theorem onePass_eq_twoPass {ι : Type*} [Fintype ι] (N : ℝ) (hcard : (Fintype.card ι : ℝ) = N) (hN0 : N ≠ 0)
    (o : ι → EReal) (hfin : ∀ k, ∃ r : ℝ, o k = (r : EReal)) (e x w b : EReal) :
    onePass (N : EReal) e (∑ k, o k) (∑ k, o k * o k) x w b = twoPass 0 (N : EReal) e o x w b := by
  choose r hr using hfin
  obtain rfl : o = fun k => (r k : EReal) := funext hr
  unfold onePass twoPass
  rw [var_eq N hcard hN0 r]
  simp only [zero_add]

/-- A sum over `100000 = 20 · 5000` positions, tile by tile: position `5000 t + r` is entry `r` of tile `t`. -/
theorem sum_tiles {M : Type*} [AddCommMonoid M] (g : Fin 100000 → M) :
    ∑ k, g k = ∑ t : Fin 20, ∑ r : Fin 5000, g ⟨5000 * t.val + r.val, by have := t.isLt; have := r.isLt; omega⟩ := by
  rw [← Fintype.sum_prod_type (f := fun p : Fin 20 × Fin 5000 =>
    g ⟨5000 * p.1.val + p.2.val, by have := p.1.isLt; have := p.2.isLt; omega⟩)]
  refine (Fintype.sum_equiv (finProdFinEquiv (m := 20) (n := 5000)) _ _ fun p => ?_).symm
  refine congrArg g (Fin.ext ?_)
  show 5000 * p.1.val + p.2.val = p.2.val + 5000 * p.1.val
  omega

/-- A running sum started at `z + T 0` and gaining `T (n + 1)` at each later step is `z` plus the partial sum. -/
theorem running_sum (z : EReal) (T acc : ℕ → EReal) (M : ℕ) (h0 : acc 0 = z + T 0)
    (hs : ∀ n, n + 1 < M → acc (n + 1) = acc n + T (n + 1)) :
    ∀ n, n < M → acc n = z + ∑ t ∈ Finset.range (n + 1), T t
  | 0, _ => by rw [h0, Finset.sum_range_one]
  | n + 1, h => by
    rw [hs n h, running_sum z T acc M h0 hs n (Nat.lt_of_succ_lt h), Finset.sum_range_succ _ (n + 1), add_assoc]

end Cert.ColumnStats

end
-- ==== Proof.StatsRegion.lean ====
import proofs.«167985_j70712341561346_1_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws
import proofs.«167985_j70712341561346_1_alg».proof.Proof.ColumnStats

set_option maxRecDepth 16384
noncomputable section

/-!
# The statistics launch

The second launch visits the twenty row blocks of the aggregate `A` in order with two `[1, 128]` columns carried from
point to point and written back after the last one: at the first point both are reset to zero, and at every point the
first gains, lane by lane, the sum over the block's 5000 rows of `A + bias`, the second the sum of its squares. Addition on
the extended reals is associative and commutative with no finiteness needed, so after the last point lane `d` of the first
column is `0 + Σ_t Σ_r (A (5000 t + r, d) + bias d)`, and likewise for the squares.
-/

namespace Cert.KernelIdeal.Stats

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- At the first grid point the sum column is reset and then gains the block's column sums: `0 + Σ`. -/
theorem sum_first (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i) (x0 : Vec Ideal S5000x128 .f32) (x1 : Vec Ideal S1x128 .f32) :
    out1_A_2 c i a1 h1 a2 h2 a3 h3 a4 h4 hc x0 x1 = k1_pay4 x0 x1 (k1_pay1 (F := Ideal)) := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz, View.ld_unit_zero (S := S1x128) hz]

/-- At the first grid point the sum-of-squares column is reset and then gains the block's column sums of squares. -/
theorem sumsq_first (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i) (x0 : Vec Ideal S5000x128 .f32) (x1 : Vec Ideal S1x128 .f32) :
    out1_A_3 c i a1 h1 a2 h2 a3 h3 a4 h4 hc x0 x1 = k1_pay5 x0 x1 (k1_pay2 (F := Ideal)) := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S5000x128) hz, View.ld_unit_zero (S := S1x128) hz]

/-- At a later grid point the sum column gains the block's column sums. -/
theorem sum_later (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i) (x0 : Vec Ideal S5000x128 .f32) (x1 xo2 xo3 : Vec Ideal S1x128 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  rw [View.canon_unit_zero hz]
  simp only [View.readAt_eq_ld, h1.read_unread, h2.read_unread, h3.read_unread, View.ld_unit_zero (S := S5000x128) hz, View.ld_unit_zero (S := S1x128) hz]

/-- At a later grid point the sum-of-squares column gains the block's column sums of squares. -/
theorem sumsq_later (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i) (x0 : Vec Ideal S5000x128 .f32) (x1 xo2 xo3 : Vec Ideal S1x128 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  rw [View.canon_unit_zero hz]
  simp only [View.readAt_eq_ld, h1.read_unread, h2.read_unread, h4.read_unread, View.ld_unit_zero (S := S5000x128) hz, View.ld_unit_zero (S := S1x128) hz]

/-- A reduced lane index with row `r` put back is `(r, q)`. -/
theorem lift_lane (q : Fin 128) (r : Fin 5000) : reduces_S5000x128_S128.lift (ix1 q) r = ix2 r q :=
  funext fun a => Fin.ext (by match a with | ⟨0, _⟩ => rfl | ⟨1, _⟩ => rfl)

/-- An entry of the block plus the bias row's lane. -/
theorem shifted_apply (x0 : FVec Ideal S5000x128 .f32) (x1 : FVec Ideal S1x128 .f32) (r : Fin 5000) (q : Fin 128) :
    k1_pay3 x0 x1 (ix2 r q) = x0 (ix2 r q) + x1 (ix2 (0 : Fin 1) q) := by
  unfold k1_pay3
  simp only [shapeCast_self]
  rw [addf_apply, broadcastTo_1b_ab_apply]

/-- The lane sum of a block, with the accumulator's neutral word as printed. -/
theorem lane_sum (src : FVec Ideal S5000x128 .f32) (hacc : (0x00000000#32 : BitVec 32) = 0x00000000#32) (q : Fin 128) :
    multiReduction .add [0] S128 src 0x00000000#32 reduces_S5000x128_S128 (.inl rfl) hacc (ix1 q) = ∑ r : Fin 5000, src (ix2 r q) := by
  refine (Ideal.multiReduction_add_single src 0x00000000#32 reduces_S5000x128_S128 (.inl rfl) hacc (ix1 q)).trans ?_
  exact Finset.sum_congr rfl fun r _ => congrArg src (lift_lane q r)

/-- Lane `q` of the new sum column: the old lane plus the block's column sum of `A + bias`. -/
theorem sum_step (x0 : FVec Ideal S5000x128 .f32) (x1 acc : FVec Ideal S1x128 .f32) (q : Fin 128) :
    k1_pay4 x0 x1 acc (ix2 (0 : Fin 1) q) = acc (ix2 (0 : Fin 1) q) + ∑ r : Fin 5000, (x0 (ix2 r q) + x1 (ix2 (0 : Fin 1) q)) := by
  unfold k1_pay4
  simp only [shapeCast_self]
  rw [addf_apply, shapeCast_a_1a_apply]
  refine congrArg (_ + ·) ((lane_sum _ rfl q).trans ?_)
  exact Finset.sum_congr rfl fun r _ => shifted_apply x0 x1 r q

/-- Lane `q` of the new sum-of-squares column: the old lane plus the block's column sum of `(A + bias)²`. -/
theorem sumsq_step (x0 : FVec Ideal S5000x128 .f32) (x1 acc : FVec Ideal S1x128 .f32) (q : Fin 128) :
    k1_pay5 x0 x1 acc (ix2 (0 : Fin 1) q) = acc (ix2 (0 : Fin 1) q)
      + ∑ r : Fin 5000, (x0 (ix2 r q) + x1 (ix2 (0 : Fin 1) q)) * (x0 (ix2 r q) + x1 (ix2 (0 : Fin 1) q)) := by
  unfold k1_pay5
  simp only [shapeCast_self]
  rw [addf_apply, shapeCast_a_1a_apply]
  refine congrArg (_ + ·) ((lane_sum _ rfl q).trans ?_)
  refine Finset.sum_congr rfl fun r _ => ?_
  rw [mulf_apply, shifted_apply]

/-- The reset column is zero in every lane. -/
theorem reset_apply (q : Fin 128) : k1_pay1 (F := Ideal) (ix2 (0 : Fin 1) q) = 0 := by
  unfold k1_pay1
  show Ideal.ofBits .f32 0x00000000#32 = 0
  exact Ideal.ofBits_zero_f32

theorem reset_apply' (q : Fin 128) : k1_pay2 (F := Ideal) (ix2 (0 : Fin 1) q) = 0 := by
  unfold k1_pay2
  show Ideal.ofBits .f32 0x00000000#32 = 0
  exact Ideal.ofBits_zero_f32

/-- The printed index maps over the grid: the aggregate's window is at block `(t, 0)`, the bias row and the two columns at `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Row `r`, lane `q` of the block at point `t` is the aggregate at row `5000 t + r`. -/
theorem read_rows (c : Dev nD) (t : Fin cfg1.N) (r : Fin 5000) (q : Fin 128) :
    iblk1 V c 0 t (ix2 r q) = V c main_v43 (ix2 (⟨5000 * t.val + r.val, by have := t.isLt; have hN : cfg1.N = 20 := N_1; have := r.isLt; omega⟩ : Fin 100000) q) := by
  obtain ⟨e00, e01, -⟩ := idx_facts t
  have h : ((cfg1.win 0).blk t).view.emb (ix2 r q) = ix2 (⟨5000 * t.val + r.val, by have := t.isLt; have hN : cfg1.N = 20 := N_1; have := r.isLt; omega⟩ : Fin 100000) q := by
    funext a; apply Fin.ext
    match a with
    | ⟨0, _⟩ => show win1_0.index t (0 : Fin 2) * 5000 + 1 * r.val = 5000 * t.val + r.val; omega
    | ⟨1, _⟩ => show win1_0.index t (1 : Fin 2) * 128 + 1 * q.val = q.val; omega
  unfold iblk1; rw [View.read_apply]; exact congrArg (V c main_v43) h

/-- Lane `q` of the bias row's block is the bias row's lane `q`. -/
theorem read_bias (c : Dev nD) (t : Fin cfg1.N) (q : Fin 128) :
    iblk1 V c 1 t (ix2 (0 : Fin 1) q) = V c main_v44 (ix2 (0 : Fin 1) q) := by
  obtain ⟨-, -, e10, e11, -⟩ := idx_facts t
  have h : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  unfold iblk1; rw [View.read_apply]; exact congrArg (V c main_v44) h

/-- The shifted aggregate: `A + bias` at row `n`, lane `q`. -/
def shifted (A : S100000x128.Idx → EReal) (b : S1x128.Idx → EReal) (n : Fin 100000) (q : Fin 128) : EReal :=
  A (ix2 n q) + b (ix2 (0 : Fin 1) q)

/-- Block `t`'s column sum of the shifted aggregate, and of its square (zero beyond the grid). -/
def tileSum (A : S100000x128.Idx → EReal) (b : S1x128.Idx → EReal) (q : Fin 128) (t : ℕ) : EReal :=
  if h : t < 20 then ∑ r : Fin 5000, shifted A b ⟨5000 * t + r.val, by have := r.isLt; omega⟩ q else 0
def tileSumSq (A : S100000x128.Idx → EReal) (b : S1x128.Idx → EReal) (q : Fin 128) (t : ℕ) : EReal :=
  if h : t < 20 then ∑ r : Fin 5000, shifted A b ⟨5000 * t + r.val, by have := r.isLt; omega⟩ q * shifted A b ⟨5000 * t + r.val, by have := r.isLt; omega⟩ q else 0

/-- What the two columns hold after point `n`: lane by lane, zero plus the tile sums so far. -/
theorem carried (c : Dev nD) : ∀ (n : ℕ) (h : n < cfg1.N) (q : Fin 128),
    (outsAt1 V c n h).1 (ix2 (0 : Fin 1) q) = 0 + ∑ t ∈ Finset.range (n + 1), tileSum (V c main_v43) (V c main_v44) q t
    ∧ (outsAt1 V c n h).2 (ix2 (0 : Fin 1) q) = 0 + ∑ t ∈ Finset.range (n + 1), tileSumSq (V c main_v43) (V c main_v44) q t
  | 0, h, q => by
    have hN : cfg1.N = 20 := N_1
    rw [outsAt1_A V c ⟨0, h⟩ rfl]
    dsimp only
    rw [sum_first, sumsq_first]
    refine ⟨(sum_step (iblk1 V c 0 ⟨0, h⟩) (iblk1 V c 1 ⟨0, h⟩) (k1_pay1 (F := Ideal)) q).trans ?_, (sumsq_step (iblk1 V c 0 ⟨0, h⟩) (iblk1 V c 1 ⟨0, h⟩) (k1_pay2 (F := Ideal)) q).trans ?_⟩
    · rw [reset_apply, Finset.sum_range_one]
      unfold tileSum
      rw [dif_pos (by omega)]
      refine congrArg (0 + ·) (Finset.sum_congr rfl fun r _ => ?_)
      rw [read_rows V c ⟨0, h⟩ r q, read_bias V c ⟨0, h⟩ q]; rfl
    · rw [reset_apply', Finset.sum_range_one]
      unfold tileSumSq
      rw [dif_pos (by omega)]
      refine congrArg (0 + ·) (Finset.sum_congr rfl fun r _ => ?_)
      rw [read_rows V c ⟨0, h⟩ r q, read_bias V c ⟨0, h⟩ q]; rfl
  | n + 1, h, q => by
    have hN : cfg1.N = 20 := N_1
    have hB : ¬(⟨n + 1, h⟩ : Fin cfg1.N).val % 20 = 0 := by dsimp only; omega
    obtain ⟨ih1, ih2⟩ := carried c n (Nat.lt_of_succ_lt h) q
    rw [outsAt1_B V c ⟨n + 1, h⟩ hB]
    dsimp only
    rw [sum_later, sumsq_later]
    refine ⟨(sum_step (iblk1 V c 0 ⟨n + 1, h⟩) (iblk1 V c 1 ⟨n + 1, h⟩) _ q).trans ?_, (sumsq_step (iblk1 V c 0 ⟨n + 1, h⟩) (iblk1 V c 1 ⟨n + 1, h⟩) _ q).trans ?_⟩
    · rw [Finset.sum_range_succ _ (n + 1), ← add_assoc]
      refine congr (congrArg HAdd.hAdd ih1) ?_
      unfold tileSum
      rw [dif_pos (by omega)]
      refine Finset.sum_congr rfl fun r _ => ?_
      rw [read_rows V c ⟨n + 1, h⟩ r q, read_bias V c ⟨n + 1, h⟩ q]; rfl
    · rw [Finset.sum_range_succ _ (n + 1), ← add_assoc]
      refine congr (congrArg HAdd.hAdd ih2) ?_
      unfold tileSumSq
      rw [dif_pos (by omega)]
      refine Finset.sum_congr rfl fun r _ => ?_
      rw [read_rows V c ⟨n + 1, h⟩ r q, read_bias V c ⟨n + 1, h⟩ q]; rfl

/-- The colSum column after the last point, as contents of its `[1, 128]` array. -/
def colSum (A : S100000x128.Idx → EReal) (b : S1x128.Idx → EReal) : S1x128.Idx → EReal :=
  fun i => 0 + ∑ t ∈ Finset.range 20, tileSum A b (i 1) t

/-- The one write-back of the colSum column, after the last point, writes it. -/
theorem flushed_colSum (c : Dev nD) (t : Fin cfg1.N) (hf : (cfg1.win 2).flush t = true) :
    (dat1 V c).flushed 2 t = ((cfg1.win 2).blk t).view.read (Elt Ideal) (colSum (V c main_v43) (V c main_v44)) := by
  have hN : cfg1.N = 20 := N_1
  have h19 : t.val = 19 := by have := (flush1_2 t).mp hf; have := t.isLt; omega
  obtain ⟨-, -, -, -, e20, e21, e30, e31⟩ := idx_facts t
  show (cfg1.win 2).cut (grid1.coords t) ((dat1 V c).after 2 t) = _
  rw [after1_2]
  funext j
  rw [View.read_apply]
  obtain ⟨u, q, rfl⟩ : ∃ (u : Fin 1) (q : Fin 128), j = ix2 u q := ⟨j 0, j 1, eq_ix2 j⟩
  obtain rfl : u = 0 := Subsingleton.elim _ _
  have hq : (((cfg1.win 2).blk t).view.emb (ix2 (0 : Fin 1) q)) 1 = q := by
    apply Fin.ext
    show win1_2.index t (1 : Fin 2) * 128 + 1 * q.val = q.val
    omega
  show (outsAt1 V c t.val t.isLt).1 (ix2 (0 : Fin 1) q) = colSum (V c main_v43) (V c main_v44) (((cfg1.win 2).blk t).view.emb (ix2 (0 : Fin 1) q))
  unfold colSum
  rw [(carried V c t.val t.isLt q).1, hq, h19]

/-- The last point's block is the whole `[1, 128]` array. -/
theorem cover_colSum (i : S1x128.Idx) : ∃ t : Fin cfg1.N, (cfg1.win 2).flush t = true ∧ i ∈ ((cfg1.win 2).blk t).view.set := by
  have hN : cfg1.N = 20 := N_1
  let t : Fin cfg1.N := ⟨19, by rw [hN]; decide⟩
  obtain ⟨-, -, -, -, e20, e21, e30, e31⟩ := idx_facts t
  refine ⟨t, (flush1_2 t).mpr rfl, ?_⟩
  show i ∈ ((View.whole main_v47_0).slice (win1_2.rect t)).set
  rw [View.set_slice_whole, Rect.mem_set_unit]
  have hi0 : (i 0).val < 1 := (i 0).isLt
  have hi1 : (i 1).val < 128 := (i 1).isLt
  intro a
  match a with
  | ⟨0, _⟩ => show win1_2.index t (0 : Fin 2) * 1 ≤ (i 0).val ∧ (i 0).val < win1_2.index t (0 : Fin 2) * 1 + 1; omega
  | ⟨1, _⟩ => show win1_2.index t (1 : Fin 2) * 128 ≤ (i 1).val ∧ (i 1).val < win1_2.index t (1 : Fin 2) * 128 + 128; omega

/-- The colSum array after the launch. -/
theorem final_colSum (c : Dev nD) : (dat1 V c).arrAt 2 cfg1.N = colSum (V c main_v43) (V c main_v44) :=
  (dat1 V c).arrAt_eq_of_cover 2 _ (flushed_colSum V c) cover_colSum

/-- The colSumSq column after the last point, as contents of its `[1, 128]` array. -/
def colSumSq (A : S100000x128.Idx → EReal) (b : S1x128.Idx → EReal) : S1x128.Idx → EReal :=
  fun i => 0 + ∑ t ∈ Finset.range 20, tileSumSq A b (i 1) t

/-- The one write-back of the colSumSq column, after the last point, writes it. -/
theorem flushed_colSumSq (c : Dev nD) (t : Fin cfg1.N) (hf : (cfg1.win 3).flush t = true) :
    (dat1 V c).flushed 3 t = ((cfg1.win 3).blk t).view.read (Elt Ideal) (colSumSq (V c main_v43) (V c main_v44)) := by
  have hN : cfg1.N = 20 := N_1
  have h19 : t.val = 19 := by have := (flush1_3 t).mp hf; have := t.isLt; omega
  obtain ⟨-, -, -, -, e20, e21, e30, e31⟩ := idx_facts t
  show (cfg1.win 3).cut (grid1.coords t) ((dat1 V c).after 3 t) = _
  rw [after1_3]
  funext j
  rw [View.read_apply]
  obtain ⟨u, q, rfl⟩ : ∃ (u : Fin 1) (q : Fin 128), j = ix2 u q := ⟨j 0, j 1, eq_ix2 j⟩
  obtain rfl : u = 0 := Subsingleton.elim _ _
  have hq : (((cfg1.win 3).blk t).view.emb (ix2 (0 : Fin 1) q)) 1 = q := by
    apply Fin.ext
    show win1_3.index t (1 : Fin 2) * 128 + 1 * q.val = q.val
    omega
  show (outsAt1 V c t.val t.isLt).2 (ix2 (0 : Fin 1) q) = colSumSq (V c main_v43) (V c main_v44) (((cfg1.win 3).blk t).view.emb (ix2 (0 : Fin 1) q))
  unfold colSumSq
  rw [(carried V c t.val t.isLt q).2, hq, h19]

/-- The last point's block is the whole `[1, 128]` array. -/
theorem cover_colSumSq (i : S1x128.Idx) : ∃ t : Fin cfg1.N, (cfg1.win 3).flush t = true ∧ i ∈ ((cfg1.win 3).blk t).view.set := by
  have hN : cfg1.N = 20 := N_1
  let t : Fin cfg1.N := ⟨19, by rw [hN]; decide⟩
  obtain ⟨-, -, -, -, e20, e21, e30, e31⟩ := idx_facts t
  refine ⟨t, (flush1_3 t).mpr rfl, ?_⟩
  show i ∈ ((View.whole main_v47_1).slice (win1_3.rect t)).set
  rw [View.set_slice_whole, Rect.mem_set_unit]
  have hi0 : (i 0).val < 1 := (i 0).isLt
  have hi1 : (i 1).val < 128 := (i 1).isLt
  intro a
  match a with
  | ⟨0, _⟩ => show win1_3.index t (0 : Fin 2) * 1 ≤ (i 0).val ∧ (i 0).val < win1_3.index t (0 : Fin 2) * 1 + 1; omega
  | ⟨1, _⟩ => show win1_3.index t (1 : Fin 2) * 128 ≤ (i 1).val ∧ (i 1).val < win1_3.index t (1 : Fin 2) * 128 + 128; omega

/-- The colSumSq array after the launch. -/
theorem final_colSumSq (c : Dev nD) : (dat1 V c).arrAt 3 cfg1.N = colSumSq (V c main_v43) (V c main_v44) :=
  (dat1 V c).arrAt_eq_of_cover 3 _ (flushed_colSumSq V c) cover_colSumSq

/-- The tile sums, taken over all twenty tiles, are the sum over all rows. -/
theorem tiles_total (A : S100000x128.Idx → EReal) (b : S1x128.Idx → EReal) (q : Fin 128) :
    ∑ t ∈ Finset.range 20, tileSum A b q t = ∑ k : Fin 100000, shifted A b k q := by
  rw [Finset.sum_range, Cert.ColumnStats.sum_tiles]
  refine Finset.sum_congr rfl fun t _ => ?_
  unfold tileSum
  rw [dif_pos t.isLt]

theorem tiles_total_sq (A : S100000x128.Idx → EReal) (b : S1x128.Idx → EReal) (q : Fin 128) :
    ∑ t ∈ Finset.range 20, tileSumSq A b q t = ∑ k : Fin 100000, shifted A b k q * shifted A b k q := by
  rw [Finset.sum_range, Cert.ColumnStats.sum_tiles]
  refine Finset.sum_congr rfl fun t _ => ?_
  unfold tileSumSq
  rw [dif_pos t.isLt]

end Cert.KernelIdeal.Stats

end
-- ==== Proof.NormRegion.lean ====
import proofs.«167985_j70712341561346_1_alg».proof.Proof.Gen.KernelIdeal.Frame
import Idealize.ShloMosaic.Lib.Pipeline.Value
import Idealize.ShloMosaic.Lib.ValueIdx
import Idealize.ShloMosaic.Lib.ValueLayout

/-!
# The normalising launch

Grid point `t` of the third launch reads rows `5000 t … 5000 t + 4999` of the aggregate `A` and the five `[1, 128]` rows
(bias, mean, inverse deviation, scale, shift) whole, and writes back, for the same rows,
`((A + bias) - mean) · inv · scale + shift` lane by lane. The twenty row blocks tile the `[100000, 128]` result, so the result
array ends as that one function of the arrays the launch found.
-/

set_option maxRecDepth 16384

noncomputable section

namespace Cert.KernelIdeal.Norm

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The normalised array: entry `(n, d)` is `((A (n, d) + b d) - μ d) · s d · w d + β d`, the rows read at `(0, d)`. -/
def normArr (A : S100000x128.Idx → EReal) (b μ s w β : S1x128.Idx → EReal) : S100000x128.Idx → EReal :=
  fun i => (((A i + b (ix2 (0 : Fin 1) (i 1))) - μ (ix2 (0 : Fin 1) (i 1))) * s (ix2 (0 : Fin 1) (i 1)))
      * w (ix2 (0 : Fin 1) (i 1)) + β (ix2 (0 : Fin 1) (i 1))

/-- The body's stored value at `(p, q)`: the row block's entry and the five rows' lane `q`. -/
theorem pay_apply (x0 : Vec Ideal S5000x128 .f32) (x1 x2 x3 x4 x5 : Vec Ideal S1x128 .f32) (j : S5000x128.Idx) :
    k2_pay1 x0 x1 x2 x3 x4 x5 j
      = (((x0 j + x1 (ix2 (0 : Fin 1) (j 1))) - x2 (ix2 (0 : Fin 1) (j 1))) * x3 (ix2 (0 : Fin 1) (j 1)))
          * x4 (ix2 (0 : Fin 1) (j 1)) + x5 (ix2 (0 : Fin 1) (j 1)) := by
  obtain ⟨p, q, rfl⟩ : ∃ (p : Fin 5000) (q : Fin 128), j = ix2 p q := ⟨j 0, j 1, eq_ix2 j⟩
  unfold k2_pay1
  simp only [shapeCast_self]
  rw [addf_apply, mulf_apply, mulf_apply, subf_apply, addf_apply, broadcastTo_1b_ab_apply, broadcastTo_1b_ab_apply,
    broadcastTo_1b_ab_apply, broadcastTo_1b_ab_apply, broadcastTo_1b_ab_apply]

/-- The printed index maps over the grid: the row-blocked windows are at block `(t, 0)`, the rows at block `(0, 0)`. -/
theorem idx_facts : ∀ t : Fin cfg2.N, win2_0.index t (0 : Fin 2) = t.val ∧ win2_0.index t (1 : Fin 2) = 0
    ∧ win2_6.index t (0 : Fin 2) = t.val ∧ win2_6.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- The aggregate's row block, read at a block entry, is the array at the entry's position in the result. -/
theorem read_rows (c : Dev nD) (t : Fin cfg2.N) (j : S5000x128.Idx) :
    iblk2 V c 0 t j = V c main_v43 (((cfg2.win 6).blk t).view.emb j) := by
  obtain ⟨e00, e01, e60, e61, -⟩ := idx_facts t
  have hj0 : (j 0).val < 5000 := (j 0).isLt
  have hj1 : (j 1).val < 128 := (j 1).isLt
  have h : ((cfg2.win 0).blk t).view.emb j = ((cfg2.win 6).blk t).view.emb j := by
    funext a; apply Fin.ext
    match a with
    | ⟨0, _⟩ => show win2_0.index t (0 : Fin 2) * 5000 + 1 * (j 0).val = win2_6.index t (0 : Fin 2) * 5000 + 1 * (j 0).val; omega
    | ⟨1, _⟩ => show win2_0.index t (1 : Fin 2) * 128 + 1 * (j 1).val = win2_6.index t (1 : Fin 2) * 128 + 1 * (j 1).val; omega
  unfold iblk2; rw [View.read_apply]; exact congrArg (V c main_v43) h

/-- Window 1's row, read at lane `q` of a block entry, is the array's row at that entry's lane. -/
theorem read_row1 (c : Dev nD) (t : Fin cfg2.N) (j : S5000x128.Idx) :
    iblk2 V c 1 t (ix2 (0 : Fin 1) (j 1)) = V c main_v44 (ix2 (0 : Fin 1) ((((cfg2.win 6).blk t).view.emb j) 1)) := by
  obtain ⟨e00, e01, e60, e61, e10, e11, e20, e21, e30, e31, e40, e41, e50, e51⟩ := idx_facts t
  have hj1 : (j 1).val < 128 := (j 1).isLt
  have h : ((cfg2.win 1).blk t).view.emb (ix2 (0 : Fin 1) (j 1)) = ix2 (0 : Fin 1) ((((cfg2.win 6).blk t).view.emb j) 1) := by
    funext a; apply Fin.ext
    match a with
    | ⟨0, _⟩ => show win2_1.index t (0 : Fin 2) * 1 + 1 * 0 = 0; omega
    | ⟨1, _⟩ => show win2_1.index t (1 : Fin 2) * 128 + 1 * (j 1).val = win2_6.index t (1 : Fin 2) * 128 + 1 * (j 1).val; omega
  unfold iblk2; rw [View.read_apply]; exact congrArg (V c main_v44) h

/-- Window 2's row, read at lane `q` of a block entry, is the array's row at that entry's lane. -/
theorem read_row2 (c : Dev nD) (t : Fin cfg2.N) (j : S5000x128.Idx) :
    iblk2 V c 2 t (ix2 (0 : Fin 1) (j 1)) = V c main_v49 (ix2 (0 : Fin 1) ((((cfg2.win 6).blk t).view.emb j) 1)) := by
  obtain ⟨e00, e01, e60, e61, e10, e11, e20, e21, e30, e31, e40, e41, e50, e51⟩ := idx_facts t
  have hj1 : (j 1).val < 128 := (j 1).isLt
  have h : ((cfg2.win 2).blk t).view.emb (ix2 (0 : Fin 1) (j 1)) = ix2 (0 : Fin 1) ((((cfg2.win 6).blk t).view.emb j) 1) := by
    funext a; apply Fin.ext
    match a with
    | ⟨0, _⟩ => show win2_2.index t (0 : Fin 2) * 1 + 1 * 0 = 0; omega
    | ⟨1, _⟩ => show win2_2.index t (1 : Fin 2) * 128 + 1 * (j 1).val = win2_6.index t (1 : Fin 2) * 128 + 1 * (j 1).val; omega
  unfold iblk2; rw [View.read_apply]; exact congrArg (V c main_v49) h

/-- Window 3's row, read at lane `q` of a block entry, is the array's row at that entry's lane. -/
theorem read_row3 (c : Dev nD) (t : Fin cfg2.N) (j : S5000x128.Idx) :
    iblk2 V c 3 t (ix2 (0 : Fin 1) (j 1)) = V c main_v56 (ix2 (0 : Fin 1) ((((cfg2.win 6).blk t).view.emb j) 1)) := by
  obtain ⟨e00, e01, e60, e61, e10, e11, e20, e21, e30, e31, e40, e41, e50, e51⟩ := idx_facts t
  have hj1 : (j 1).val < 128 := (j 1).isLt
  have h : ((cfg2.win 3).blk t).view.emb (ix2 (0 : Fin 1) (j 1)) = ix2 (0 : Fin 1) ((((cfg2.win 6).blk t).view.emb j) 1) := by
    funext a; apply Fin.ext
    match a with
    | ⟨0, _⟩ => show win2_3.index t (0 : Fin 2) * 1 + 1 * 0 = 0; omega
    | ⟨1, _⟩ => show win2_3.index t (1 : Fin 2) * 128 + 1 * (j 1).val = win2_6.index t (1 : Fin 2) * 128 + 1 * (j 1).val; omega
  unfold iblk2; rw [View.read_apply]; exact congrArg (V c main_v56) h

/-- Window 4's row, read at lane `q` of a block entry, is the array's row at that entry's lane. -/
theorem read_row4 (c : Dev nD) (t : Fin cfg2.N) (j : S5000x128.Idx) :
    iblk2 V c 4 t (ix2 (0 : Fin 1) (j 1)) = V c main_v45 (ix2 (0 : Fin 1) ((((cfg2.win 6).blk t).view.emb j) 1)) := by
  obtain ⟨e00, e01, e60, e61, e10, e11, e20, e21, e30, e31, e40, e41, e50, e51⟩ := idx_facts t
  have hj1 : (j 1).val < 128 := (j 1).isLt
  have h : ((cfg2.win 4).blk t).view.emb (ix2 (0 : Fin 1) (j 1)) = ix2 (0 : Fin 1) ((((cfg2.win 6).blk t).view.emb j) 1) := by
    funext a; apply Fin.ext
    match a with
    | ⟨0, _⟩ => show win2_4.index t (0 : Fin 2) * 1 + 1 * 0 = 0; omega
    | ⟨1, _⟩ => show win2_4.index t (1 : Fin 2) * 128 + 1 * (j 1).val = win2_6.index t (1 : Fin 2) * 128 + 1 * (j 1).val; omega
  unfold iblk2; rw [View.read_apply]; exact congrArg (V c main_v45) h

/-- Window 5's row, read at lane `q` of a block entry, is the array's row at that entry's lane. -/
theorem read_row5 (c : Dev nD) (t : Fin cfg2.N) (j : S5000x128.Idx) :
    iblk2 V c 5 t (ix2 (0 : Fin 1) (j 1)) = V c main_v46 (ix2 (0 : Fin 1) ((((cfg2.win 6).blk t).view.emb j) 1)) := by
  obtain ⟨e00, e01, e60, e61, e10, e11, e20, e21, e30, e31, e40, e41, e50, e51⟩ := idx_facts t
  have hj1 : (j 1).val < 128 := (j 1).isLt
  have h : ((cfg2.win 5).blk t).view.emb (ix2 (0 : Fin 1) (j 1)) = ix2 (0 : Fin 1) ((((cfg2.win 6).blk t).view.emb j) 1) := by
    funext a; apply Fin.ext
    match a with
    | ⟨0, _⟩ => show win2_5.index t (0 : Fin 2) * 1 + 1 * 0 = 0; omega
    | ⟨1, _⟩ => show win2_5.index t (1 : Fin 2) * 128 + 1 * (j 1).val = win2_6.index t (1 : Fin 2) * 128 + 1 * (j 1).val; omega
  unfold iblk2; rw [View.read_apply]; exact congrArg (V c main_v46) h

/-- What point `t` writes back is block `t` of the normalised array of the arrays the launch found. -/
theorem flushed_eq (c : Dev nD) (t : Fin cfg2.N) :
    (dat2 V c).flushed 6 t = ((cfg2.win 6).blk t).view.read (Elt Ideal)
      (normArr (V c main_v43) (V c main_v44) (V c main_v49) (V c main_v56) (V c main_v45) (V c main_v46)) := by
  show (cfg2.win 6).cut (grid2.coords t) ((dat2 V c).after 6 t) = _
  rw [after2_6]
  unfold out2_6
  rw [View.canon_unit_zero hz]
  simp only [View.ld_unit_zero (S := S5000x128) hz, View.ld_unit_zero (S := S1x128) hz]
  funext j
  refine (pay_apply (iblk2 V c 0 t) (iblk2 V c 1 t) (iblk2 V c 2 t) (iblk2 V c 3 t) (iblk2 V c 4 t) (iblk2 V c 5 t) j).trans ?_
  rw [View.read_apply]
  unfold normArr
  rw [read_rows V c t j, read_row1 V c t j, read_row2 V c t j, read_row3 V c t j, read_row4 V c t j, read_row5 V c t j]
  rfl

/-- An index of the result is in point `t`'s block iff each coordinate is in the block's range. -/
theorem mem_blk (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v57).slice (win2_6.rect t)).set ↔ _
  rw [View.set_slice_whole, Rect.mem_set_unit]
  exact Iff.rfl

/-- Row `n` is in the block of point `n / 5000`. -/
theorem cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨e00, e01, e60, e61, -⟩ := idx_facts t
  refine ⟨t, flush2_6 t, ?_⟩
  rw [mem_blk]
  have ht : t.val = (i 0).val / 5000 := rfl
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The result array after the launch: the normalised array of the arrays the launch found. -/
theorem final (c : Dev nD) : (dat2 V c).arrAt 6 cfg2.N
    = normArr (V c main_v43) (V c main_v44) (V c main_v49) (V c main_v56) (V c main_v45) (V c main_v46) :=
  (dat2 V c).arrAt_eq_of_cover 6 _ (fun t _ => flushed_eq V c t) cover

end Cert.KernelIdeal.Norm

end
-- ==== Proof.RefValue.lean ====
import proofs.«167985_j70712341561346_1_alg».proof.Proof.RefRead
import proofs.«167985_j70712341561346_1_alg».proof.Proof.ColumnStats
import Idealize.ShloMosaic.Lib.ValueIdx

/-!
# The reference, read at an index

The reference normalises the shifted aggregate `o = A + bias` column by column with the two-pass variance: entry `(n, d)` of
its result is `((o (n, d) - μ d) · rsqrt (var d + ε)) · w d + β d` with `μ d = (0 + Σ_k o (k, d)) / N` and
`var d = (0 + Σ_k (o (k, d) - μ d)²) / N`. The aggregate itself is one function of the product array `x = X · W` and the edge
list: the scatter-add, at the target nodes, of the gathered source rows scaled by the edge weights.
-/

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.ValueIdx

/-- A signed node index made usable as a gather's start index: a negative one is shifted up by the node count once. -/
def wrapIdx (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The aggregate from the product array `x`, the source and target node lists and the nodes' inverse square root degrees:
    the scatter-add, at the targets, of the gathered source rows scaled by the product of the two ends' values. -/
def aggOf4 (x : FVec Ideal S100000x128 .f32) (row col : IVec S1700000 32) (dis : FVec Ideal S100000 .f32) : FVec Ideal S100000x128 .f32 :=
  Host.scatterAdd (F := Ideal) (φ := .f32) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 col)
    (mulf (F := Ideal) (φ := .f32) (Host.gather (α := Ideal .f32) gather_S100000x128_S1700000x1_S1700000x128_1_0_n_n_0_1_1128 x (wrapIdx row))
      (broadcastInDim S1700000x128 ![0, 1] bcast_S1700000x1_S1700000x128_0_1
        (broadcastInDim S1700000x1 ![0] bcast_S1700000_S1700000x1_0
          (mulf (F := Ideal) (φ := .f32) (Host.gather (α := Ideal .f32) gather_S100000_S1700000x1_S1700000_n_0_n_n_0_1_1 dis (wrapIdx row))
            (Host.gather (α := Ideal .f32) gather_S100000_S1700000x1_S1700000_n_0_n_n_0_1_1 dis (wrapIdx col))))))

/-- The aggregate as a function of the product array and the edge list. -/
def aggOf (x : FVec Ideal S100000x128 .f32) (ei : IVec S2x1600000 32) : FVec Ideal S100000x128 .f32 :=
  aggOf4 x (val_main_v4 (F := Ideal) ei) (val_main_v7 (F := Ideal) ei) (val_main_v15 (F := Ideal) ei)

/-- The reference's aggregate is that function of its own product. -/
theorem agg_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) :
    val_main_v43 (F := Ideal) x0 x1 x2 = aggOf (val_main_v0 (F := Ideal) x0 x2) x1 := rfl

/-- The reference's product at an index. -/
theorem prod_apply (x0 : (⟨S100000x128, .f32⟩ : BufTy).Contents (Elt Ideal)) (x2 : (⟨S128x128, .f32⟩ : BufTy).Contents (Elt Ideal))
    (i : S100000x128.Idx) : val_main_v0 (F := Ideal) x0 x2 i = ∑ k : Fin 128, x0 (ix2 (i 0) k) * x2 (ix2 k (i 1)) := by
  rw [val_main_v0_apply]
  refine Finset.sum_congr rfl fun k _ => ?_
  have el : lidx_main_v0 i k = ix2 (i 0) k := funext fun a => Fin.ext (by match a with | ⟨0, _⟩ => rfl | ⟨1, _⟩ => rfl)
  have er : ridx_main_v0 i k = ix2 k (i 1) := funext fun a => Fin.ext (by match a with | ⟨0, _⟩ => rfl | ⟨1, _⟩ => rfl)
  rw [el, er]
  rfl

/-- The shifted aggregate at `(n, d)`: the aggregate plus the bias's lane. -/
theorem shifted_apply (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (n : Fin 100000) (d : Fin 128) :
    val_main_v46 (F := Ideal) x0 x1 x2 x3 (ix2 n d) = val_main_v43 (F := Ideal) x0 x1 x2 (ix2 n d) + x3 (ix1 d) := by
  have e : idx_main_v44 (idx_main_v45 (ix2 n d)) = ix1 d := funext fun a => Fin.ext (by match a with | ⟨0, _⟩ => rfl)
  rw [val_main_v46_apply, val_main_v45_apply, val_main_v44_apply, e, Ideal.addf_def]

/-- The reference's result at `(n, d)`: the shifted aggregate normalised with the two-pass variance of column `d`. -/
theorem result_apply (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 x4 x5 : (⟨S128, .f32⟩ : BufTy).Contents (Elt Ideal)) (n : Fin 100000) (d : Fin 128) :
    val_main_v71 (F := Ideal) x0 x1 x2 x3 x4 x5 (ix2 n d)
      = Cert.ColumnStats.twoPass (Ideal.ofBits .f32 0x00000000#32) (Ideal.ofBits .f32 0x47C35000#32) (Ideal.ofBits .f32 0x3727C5AC#32)
          (fun k : Fin 100000 => val_main_v46 (F := Ideal) x0 x1 x2 x3 (ix2 k d))
          (val_main_v46 (F := Ideal) x0 x1 x2 x3 (ix2 n d)) (x4 (ix1 d)) (x5 (ix1 d)) := by
  have e47 : ∀ k : Fin 100000, idx_main_v47 (ix1 d) k = ix2 k d := fun k =>
    funext fun a => Fin.ext (by match a with | ⟨0, _⟩ => rfl | ⟨1, _⟩ => rfl)
  have e54 : ∀ k : Fin 100000, idx_main_v54 (ix1 d) k = ix2 k d := fun k =>
    funext fun a => Fin.ext (by match a with | ⟨0, _⟩ => rfl | ⟨1, _⟩ => rfl)
  have i69 : idx_main_v69 (idx_main_v70 (ix2 n d)) = ix1 d := funext fun a => Fin.ext (by match a with | ⟨0, _⟩ => rfl)
  have i66 : idx_main_v66 (idx_main_v67 (ix2 n d)) = ix1 d := funext fun a => Fin.ext (by match a with | ⟨0, _⟩ => rfl)
  have i63 : idx_main_v63 (idx_main_v64 (ix2 n d)) = ix1 d := funext fun a => Fin.ext (by match a with | ⟨0, _⟩ => rfl)
  have i57 : idx_main_v57 (idx_main_v58 (ix2 n d)) = ix1 d := funext fun a => Fin.ext (by match a with | ⟨0, _⟩ => rfl)
  have i50 : ∀ k : Fin 100000, idx_main_v50 (idx_main_v51 (ix2 k d)) = ix1 d := fun k =>
    funext fun a => Fin.ext (by match a with | ⟨0, _⟩ => rfl)
  have hmean : val_main_v49 (F := Ideal) x0 x1 x2 x3 (ix1 d) = Ideal.div (Ideal.ofBits .f32 0x00000000#32 + ∑ j : Fin 100000, val_main_v46 (F := Ideal) x0 x1 x2 x3 (ix2 j d)) (Ideal.ofBits .f32 0x47C35000#32) := by
    rw [val_main_v49_apply, val_main_v47_apply, val_main_v48_apply, val_main_cst_10_apply, val_main_cst_9_apply]
    simp only [e47, Ideal.hostDivf_def, Ideal.ofBits_def]
  have hsq : ∀ k : Fin 100000, val_main_v53 (F := Ideal) x0 x1 x2 x3 (ix2 k d)
      = (val_main_v46 (F := Ideal) x0 x1 x2 x3 (ix2 k d) - Ideal.div (Ideal.ofBits .f32 0x00000000#32 + ∑ j : Fin 100000, val_main_v46 (F := Ideal) x0 x1 x2 x3 (ix2 j d)) (Ideal.ofBits .f32 0x47C35000#32)) * (val_main_v46 (F := Ideal) x0 x1 x2 x3 (ix2 k d) - Ideal.div (Ideal.ofBits .f32 0x00000000#32 + ∑ j : Fin 100000, val_main_v46 (F := Ideal) x0 x1 x2 x3 (ix2 j d)) (Ideal.ofBits .f32 0x47C35000#32)) := fun k => by
    rw [val_main_v53_apply, val_main_v52_apply, val_main_v51_apply, val_main_v50_apply, i50 k, hmean]
    simp only [Ideal.mulf_def, Ideal.subf_def]
  have hvar : val_main_v56 (F := Ideal) x0 x1 x2 x3 (ix1 d)
      = Ideal.div (Ideal.ofBits .f32 0x00000000#32 + ∑ k : Fin 100000, (val_main_v46 (F := Ideal) x0 x1 x2 x3 (ix2 k d) - Ideal.div (Ideal.ofBits .f32 0x00000000#32 + ∑ j : Fin 100000, val_main_v46 (F := Ideal) x0 x1 x2 x3 (ix2 j d)) (Ideal.ofBits .f32 0x47C35000#32)) * (val_main_v46 (F := Ideal) x0 x1 x2 x3 (ix2 k d) - Ideal.div (Ideal.ofBits .f32 0x00000000#32 + ∑ j : Fin 100000, val_main_v46 (F := Ideal) x0 x1 x2 x3 (ix2 j d)) (Ideal.ofBits .f32 0x47C35000#32)))
          (Ideal.ofBits .f32 0x47C35000#32) := by
    rw [val_main_v56_apply, val_main_v54_apply, val_main_v55_apply, val_main_cst_12_apply, val_main_cst_11_apply]
    simp only [e54, hsq, Ideal.hostDivf_def, Ideal.ofBits_def]
  unfold Cert.ColumnStats.twoPass
  rw [val_main_v71_apply, val_main_v68_apply, val_main_v65_apply, val_main_v59_apply, val_main_v58_apply, val_main_v57_apply, i57, hmean,
    val_main_v64_apply, val_main_v63_apply, i63, val_main_v62_apply, val_main_v61_apply, hvar, val_main_v60_apply, val_main_cst_13_apply,
    val_main_v67_apply, val_main_v66_apply, i66, val_main_v70_apply, val_main_v69_apply, i69]
  simp only [Ideal.addf_def, Ideal.subf_def, Ideal.mulf_def, Ideal.hostUnary_rsqrt_def, Ideal.ofBits_def]

end Cert.ReferenceIdeal.RefValue

end
-- ==== Proof.AggGlue.lean ====
import proofs.«167985_j70712341561346_1_alg».proof.Proof.Gen.KernelIdeal.Frame
import proofs.«167985_j70712341561346_1_alg».proof.Proof.RefValue
import Idealize.ShloMosaic.Lib.StableHlo.Run
import Idealize.ShloMosaic.Lib.Tactic

/-!
# The host stretch between the first two launches

The kernel's host operations between the linear launch and the statistics launch are the reference's own: the edge list's two
rows are each joined with the identity list (the self loops), the degrees counted by a scatter-add of ones at the targets,
their inverse square roots guarded at zero, and the aggregate formed from the product array. Read back one stretch at a
time — the node lists, the guarded inverse square roots, then the aggregate over those — each stretch's value is the
reference's term for it.
-/

set_option maxRecDepth 16384

noncomputable section

namespace Cert.KernelIdeal.AggGlue

open Cert.KernelIdeal Cert.KernelIdeal.Gen
open Idealize.ShloMosaic Idealize.ShloMosaic.TcCoe Idealize.SL.Sem Idealize.ShloMosaic.StableHlo Idealize.ShloMosaic.Tactic

variable (m : (ℓ : Loc nD τ sig) → Buf (Elt Ideal) ℓ) (ρ : Dev nD → PrngReg)

set_option maxHeartbeats 4000000 in
/-- The aggregate over whatever the last stretch finds as product array, node lists and inverse square root degrees. -/
theorem agg_open (Z : Valuation τ sig (Elt Ideal)) : StableHlo.after hostOps1_2 Z (Proc.devRef .tc main_v43)
    = Cert.ReferenceIdeal.RefValue.aggOf4 (Z (Proc.devRef .tc main_v0)) (Z (Proc.devRef .tc main_v4)) (Z (Proc.devRef .tc main_v7))
        (Z (Proc.devRef .tc main_v15)) := by
  after_results_simp
  rfl

set_option maxHeartbeats 4000000 in
/-- The source node list: the edge list's first row, then the identity list. -/
theorem row_eq (c : Dev nD) : W3 m ρ c (Proc.devRef .tc main_v4)
    = Cert.ReferenceIdeal.ReadP.val_main_v4 (F := Ideal) (W1 m ρ c (Proc.devRef .tc main_arg1)) := by
  show StableHlo.after hostOps1_1 (StableHlo.after hostOps1 (W1 m ρ c)) (Proc.devRef .tc main_v4) = _
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rfl

set_option maxHeartbeats 4000000 in
/-- The target node list: the edge list's second row, then the identity list. -/
theorem col_eq (c : Dev nD) : W3 m ρ c (Proc.devRef .tc main_v7)
    = Cert.ReferenceIdeal.ReadP.val_main_v7 (F := Ideal) (W1 m ρ c (Proc.devRef .tc main_arg1)) := by
  show StableHlo.after hostOps1_1 (StableHlo.after hostOps1 (W1 m ρ c)) (Proc.devRef .tc main_v7) = _
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rfl

set_option maxHeartbeats 4000000 in
/-- The degrees: a scatter-add of ones at the target nodes. -/
theorem deg_eq (c : Dev nD) : W2 m ρ c (Proc.devRef .tc main_v11)
    = Cert.ReferenceIdeal.ReadP.val_main_v11 (F := Ideal) (W1 m ρ c (Proc.devRef .tc main_arg1)) := by
  show StableHlo.after hostOps1 (W1 m ρ c) (Proc.devRef .tc main_v11) = _
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rfl

/-- The guard compares the degrees with a row of zeros, and the unguarded inverse square roots are the degrees'. -/
theorem guard_open (Z : Valuation τ sig (Elt Ideal)) : StableHlo.after hostOps1 Z (Proc.devRef .tc main_v13)
    = cmpf (F := Ideal) (φ := .f32) .ogt (StableHlo.after hostOps1 Z (Proc.devRef .tc main_v11))
        (broadcastInDim S100000 ![] bcast_S_S100000 (constant (F := Ideal) S_ .f32 0x00000000#32)) := by
  after_results_simp <;> rfl
theorem rsqrt_open (Z : Valuation τ sig (Elt Ideal)) : StableHlo.after hostOps1 Z (Proc.devRef .tc main_v14)
    = Host.rsqrt (F := Ideal) (φ := .f32) (StableHlo.after hostOps1 Z (Proc.devRef .tc main_v11)) := by
  after_results_simp <;> rfl
theorem zero_open (Z : Valuation τ sig (Elt Ideal)) : StableHlo.after hostOps1 Z (Proc.devRef .tc main_cst_2)
    = constant (F := Ideal) S_ .f32 0x00000000#32 := by
  after_results_simp <;> rfl

set_option maxHeartbeats 4000000 in
/-- The guarded values over whatever the select finds as guard, inverse square roots and zero. -/
theorem dis_open (Z : Valuation τ sig (Elt Ideal)) : StableHlo.after hostOps1_1 Z (Proc.devRef .tc main_v15)
    = select (Z (Proc.devRef .tc main_v13)) (Z (Proc.devRef .tc main_v14))
        (broadcastInDim S100000 ![] bcast_S_S100000 (id (Z (Proc.devRef .tc main_cst_2)))) := by
  after_results_simp <;> rfl

/-- The guarded inverse square roots of the degrees. -/
theorem dis_eq (c : Dev nD) : W3 m ρ c (Proc.devRef .tc main_v15)
    = Cert.ReferenceIdeal.ReadP.val_main_v15 (F := Ideal) (W1 m ρ c (Proc.devRef .tc main_arg1)) := by
  refine (dis_open (W2 m ρ c)).trans ?_
  show select (StableHlo.after hostOps1 (W1 m ρ c) (Proc.devRef .tc main_v13)) (StableHlo.after hostOps1 (W1 m ρ c) (Proc.devRef .tc main_v14))
      (broadcastInDim S100000 ![] bcast_S_S100000 (id (StableHlo.after hostOps1 (W1 m ρ c) (Proc.devRef .tc main_cst_2)))) = _
  rw [guard_open, rsqrt_open, zero_open]
  have hd := deg_eq m ρ c
  change StableHlo.after hostOps1 (W1 m ρ c) (Proc.devRef .tc main_v11) = _ at hd
  rw [hd]
  rfl

set_option maxHeartbeats 4000000 in
/-- The product array is untouched by the two stretches. -/
theorem prod_keep (c : Dev nD) : W3 m ρ c (Proc.devRef .tc main_v0) = W1 m ρ c (Proc.devRef .tc main_v0) := by
  show StableHlo.after hostOps1_1 (StableHlo.after hostOps1 (W1 m ρ c)) (Proc.devRef .tc main_v0) = _
  after_results_simp

/-- The aggregate the later launches find: the reference's function of the product array and the edge list. -/
theorem agg_eq (c : Dev nD) : V4 m ρ c main_v43
    = Cert.ReferenceIdeal.RefValue.aggOf (W1 m ρ c (Proc.devRef .tc main_v0)) (W1 m ρ c (Proc.devRef .tc main_arg1)) := by
  refine (agg_open (W3 m ρ c)).trans ?_
  rw [row_eq, col_eq, dis_eq, prod_keep]
  rfl

end Cert.KernelIdeal.AggGlue

end
-- ==== Proof.HostGlue.lean ====
import proofs.«167985_j70712341561346_1_alg».proof.Proof.KRun
import proofs.«167985_j70712341561346_1_alg».proof.Proof.LinearRegion
import proofs.«167985_j70712341561346_1_alg».proof.Proof.StatsRegion
import proofs.«167985_j70712341561346_1_alg».proof.Proof.NormRegion
import proofs.«167985_j70712341561346_1_alg».proof.Proof.RefValue
import proofs.«167985_j70712341561346_1_alg».proof.Proof.AggGlue
import Idealize.ShloMosaic.Lib.StableHlo.Run
import Idealize.ShloMosaic.Lib.Tactic

/-!
# The idealized kernel's result as one function of its arguments

Between the launches the host operations are the reference's own: the edge list is unpacked, the degrees counted, the
product's rows gathered, scaled and scatter-added into the aggregate `A`; after the statistics launch the two columns are
divided by `N`, the one-pass variance `Q / N - (S / N)²` formed, `ε` added and the inverse square root taken. Threading the
three launches' values through these stretches gives the result array as the normalised array of `A`, the bias row, the
mean row, the inverse-deviation row, the scale row and the shift row, each a function of the six arguments.
-/

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo Idealize.ShloMosaic.Tactic
open Idealize.ShloMosaic.Pipeline (Dat)

variable (m : (ℓ : Loc nD τ sig) → Buf (Elt Ideal) ℓ) (ρ : Dev nD → PrngReg)

/-- The constant row of `N = 100000`, and of `ε`. -/
abbrev rowN : FVec Ideal S1x128 .f32 := broadcastInDim S1x128 ![] bcast_S_S1x128 (constant (F := Ideal) S_ .f32 0x47C35000#32)
abbrev rowEps : FVec Ideal S1x128 .f32 := broadcastInDim S1x128 ![] bcast_S_S1x128 (constant (F := Ideal) S_ .f32 0x3727C5AC#32)

/-- The mean row from the sum column. -/
abbrev meanRow (S : FVec Ideal S1x128 .f32) : FVec Ideal S1x128 .f32 := Host.divf (F := Ideal) S rowN
/-- The inverse-deviation row from the two columns. -/
abbrev invRow (S Q : FVec Ideal S1x128 .f32) : FVec Ideal S1x128 .f32 :=
  Host.rsqrt (F := Ideal) (addf (subf (Host.divf (F := Ideal) Q rowN) (mulf (meanRow S) (meanRow S))) rowEps)

/-- The product array after the first launch. -/
theorem prod_eq (c : Dev nD) : W1 m ρ c (Proc.devRef .tc main_v0)
    = Linear.prodArr (m ((c : Thread nD τ).loc main_arg0)) (m ((c : Thread nD τ).loc main_arg2)) :=
  (W1_arr m ρ c 2).trans (Linear.final (V0 m ρ) c)

/-- The bias, scale and shift rows: the `[128]` arguments cast to `[1, 128]`. -/
theorem bias_eq (c : Dev nD) : V4 m ρ c main_v44 = shapeCast S1x128 (W1 m ρ c (Proc.devRef .tc main_arg3)) shapeCasts_S128_S1x128 := by
  show StableHlo.after hostOps1_2 (W3 m ρ c) (Proc.devRef .tc main_v44) = _
  after_results
  rfl
theorem scale_eq (c : Dev nD) : V4 m ρ c main_v45 = shapeCast S1x128 (W1 m ρ c (Proc.devRef .tc main_arg4)) shapeCasts_S128_S1x128 := by
  show StableHlo.after hostOps1_2 (W3 m ρ c) (Proc.devRef .tc main_v45) = _
  after_results
  rfl
theorem shift_eq (c : Dev nD) : V4 m ρ c main_v46 = shapeCast S1x128 (W1 m ρ c (Proc.devRef .tc main_arg5)) shapeCasts_S128_S1x128 := by
  show StableHlo.after hostOps1_2 (W3 m ρ c) (Proc.devRef .tc main_v46) = _
  after_results
  rfl

/-- What the normalising launch finds in each of its arrays. -/
theorem v6_agg (c : Dev nD) : V6 m ρ c main_v43 = V4 m ρ c main_v43 := by
  show StableHlo.after hostOps2 (W5 m ρ c) (Proc.devRef .tc main_v43) = _
  after_results
  exact (W5_arr m ρ c 0).trans (((dat1 (V4 m ρ) c).arrAt_in 0 rfl _).trans (A_eq1 (V4 m ρ) c 0))
theorem v6_bias (c : Dev nD) : V6 m ρ c main_v44 = V4 m ρ c main_v44 := by
  show StableHlo.after hostOps2 (W5 m ρ c) (Proc.devRef .tc main_v44) = _
  after_results
  exact (W5_arr m ρ c 1).trans (((dat1 (V4 m ρ) c).arrAt_in 1 rfl _).trans (A_eq1 (V4 m ρ) c 1))
theorem v6_scale (c : Dev nD) : V6 m ρ c main_v45 = V4 m ρ c main_v45 := by
  show StableHlo.after hostOps2 (W5 m ρ c) (Proc.devRef .tc main_v45) = _
  after_results
  exact W5_of_ne m ρ c main_v45 (by decide)
theorem v6_shift (c : Dev nD) : V6 m ρ c main_v46 = V4 m ρ c main_v46 := by
  show StableHlo.after hostOps2 (W5 m ρ c) (Proc.devRef .tc main_v46) = _
  after_results
  exact W5_of_ne m ρ c main_v46 (by decide)
theorem v6_mean (c : Dev nD) : V6 m ρ c main_v49 = meanRow (W5 m ρ c (Proc.devRef .tc main_v47_0)) := by
  show StableHlo.after hostOps2 (W5 m ρ c) (Proc.devRef .tc main_v49) = _
  after_results
theorem v6_inv (c : Dev nD) : V6 m ρ c main_v56
    = invRow (W5 m ρ c (Proc.devRef .tc main_v47_0)) (W5 m ρ c (Proc.devRef .tc main_v47_1)) := by
  show StableHlo.after hostOps2 (W5 m ρ c) (Proc.devRef .tc main_v56) = _
  after_results

/-- The two columns after the statistics launch. -/
theorem sum_eq (c : Dev nD) : W5 m ρ c (Proc.devRef .tc main_v47_0) = Stats.colSum (V4 m ρ c main_v43) (V4 m ρ c main_v44) :=
  (W5_arr m ρ c 2).trans (Stats.final_colSum (V4 m ρ) c)
theorem sumsq_eq (c : Dev nD) : W5 m ρ c (Proc.devRef .tc main_v47_1) = Stats.colSumSq (V4 m ρ c main_v43) (V4 m ρ c main_v44) :=
  (W5_arr m ρ c 3).trans (Stats.final_colSumSq (V4 m ρ) c)

/-- The arguments are untouched by the first launch. -/
theorem w1_arg1 (c : Dev nD) : W1 m ρ c (Proc.devRef .tc main_arg1) = m ((c : Thread nD τ).loc main_arg1) := W1_of_ne m ρ c main_arg1 (by decide)
theorem w1_arg3 (c : Dev nD) : W1 m ρ c (Proc.devRef .tc main_arg3) = m ((c : Thread nD τ).loc main_arg3) := W1_of_ne m ρ c main_arg3 (by decide)
theorem w1_arg4 (c : Dev nD) : W1 m ρ c (Proc.devRef .tc main_arg4) = m ((c : Thread nD τ).loc main_arg4) := W1_of_ne m ρ c main_arg4 (by decide)
theorem w1_arg5 (c : Dev nD) : W1 m ρ c (Proc.devRef .tc main_arg5) = m ((c : Thread nD τ).loc main_arg5) := W1_of_ne m ρ c main_arg5 (by decide)

/-- The result array as a function of the six arguments. -/
def kerOut (X : S100000x128.Idx → EReal) (ei : IVec S2x1600000 32) (Wt : S128x128.Idx → EReal) (b w β : S128.Idx → EReal) :
    S100000x128.Idx → EReal :=
  Norm.normArr (Cert.ReferenceIdeal.RefValue.aggOf (Linear.prodArr X Wt) ei) (shapeCast S1x128 b shapeCasts_S128_S1x128)
    (meanRow (Stats.colSum (Cert.ReferenceIdeal.RefValue.aggOf (Linear.prodArr X Wt) ei) (shapeCast S1x128 b shapeCasts_S128_S1x128)))
    (invRow (Stats.colSum (Cert.ReferenceIdeal.RefValue.aggOf (Linear.prodArr X Wt) ei) (shapeCast S1x128 b shapeCasts_S128_S1x128))
      (Stats.colSumSq (Cert.ReferenceIdeal.RefValue.aggOf (Linear.prodArr X Wt) ei) (shapeCast S1x128 b shapeCasts_S128_S1x128)))
    (shapeCast S1x128 w shapeCasts_S128_S1x128) (shapeCast S1x128 β shapeCasts_S128_S1x128)

/-- The result array after the run. -/
theorem result_eq (c : Dev nD) : W7 m ρ c (Proc.devRef .tc main_v57)
    = kerOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W7_arr m ρ c 6).trans ((Norm.final (V6 m ρ) c).trans ?_)
  rw [v6_agg, v6_bias, v6_scale, v6_shift, v6_mean, v6_inv, sum_eq, sumsq_eq, AggGlue.agg_eq, bias_eq, scale_eq, shift_eq, prod_eq,
    w1_arg1, w1_arg3, w1_arg4, w1_arg5]
  rfl

/-- The run, read: the result array at that function of the launch contents of the arguments, the arguments unchanged. -/
theorem run : θ_run defs (onTc (τ := τ) (main (F := Ideal))) ⟨m, fun _ => 0, ρ⟩ (fun r => ∀ c : Dev nD,
      r.2.mem ((c.tc : Thread nD τ).loc main_v57)
        = kerOut (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (Cert.KernelIdeal.KRun.run_named m ρ)

end Cert.KernelIdeal.Glue

end
-- ==== Proof.Finite.lean ====
import proofs.«167985_j70712341561346_1_alg».proof.Proof.RefRead
import proofs.«167985_j70712341561346_1_alg».proof.Proof.ColumnStats

/-!
# The shifted aggregate is finite

With finite features, weight and bias every entry of `A + bias` is a real number, whatever the edge list holds. The product
`X · W` is a finite sum of products of reals. A node's degree is a sum of ones, hence real; its inverse square root is taken
only where the degree is positive and replaced by zero elsewhere, hence real. A gather reads entries of its operand (an
out-of-range index is clamped), so gathered reals are reals; the edge weights and the scaled rows are products of reals;
and a scatter-add gives each entry its operand's value plus a finite sum of updates (an out-of-range update is dropped).
-/

set_option maxRecDepth 16384

noncomputable section

namespace Cert.Finite

open Idealize.ShloMosaic

/-- Every entry is a real number. -/
def AllReal {ι : Type*} (v : ι → EReal) : Prop := ∀ i, ∃ r : ℝ, v i = (r : EReal)

theorem exists_real_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

theorem exists_real_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

theorem exists_real_sum {κ : Type*} (s : Finset κ) (f : κ → EReal) (hf : ∀ k, ∃ r : ℝ, f k = (r : EReal)) :
    ∃ r : ℝ, ∑ k ∈ s, f k = (r : EReal) := by
  choose g hg using hf
  exact ⟨∑ k ∈ s, g k, by rw [← Cert.ColumnStats.coe_sum]; exact Finset.sum_congr rfl fun k _ => hg k⟩

/-- The f32 pattern `0x3F800000` denotes `1`. -/
theorem ofBits_one : Ideal.ofBits .f32 0x3F800000#32 = ((1 : ℝ) : EReal) := by
  simp [Ideal.ofBits, Ideal.ieee, -EReal.coe_mul]; norm_num

theorem ofBits_zero : Ideal.ofBits .f32 0x00000000#32 = ((0 : ℝ) : EReal) := by
  rw [Ideal.ofBits_zero_f32, EReal.coe_zero]

/-- A scatter-add of reals into reals is real. -/
theorem scatterAdd_real {s si su : Shape} {w : Nat} (d : ScatterDims s si su) (x : FVec Ideal s .f32) (idx : IVec si w)
    (upd : FVec Ideal su .f32) (hx : AllReal x) (hu : AllReal upd) : AllReal (Host.scatterAdd d x idx upd) := fun i => by
  have e : Host.scatterAdd d x idx upd i = Ideal.hostScatterAdd d x idx upd i := rfl
  rw [e]
  unfold Ideal.hostScatterAdd
  exact exists_real_add (hx i) (exists_real_sum _ _ hu)

/-- A gather of reals is real. -/
theorem gather_real {s si t : Shape} {w : Nat} (d : GatherDims s si t) (x : s.Idx → EReal) (idx : IVec si w)
    (hx : AllReal x) : AllReal (Host.gather d x idx) := fun j => hx _

/-- The inverse square root of a real degree, kept where the degree is positive and replaced by a real elsewhere, is real. -/
theorem guarded_rsqrt_real (a z f : EReal) (ha : ∃ r : ℝ, a = (r : EReal)) (hz : z = 0) (hf : ∃ r : ℝ, f = (r : EReal)) :
    ∃ r : ℝ, Scalar.select (Ideal.cmp .ogt a z) (Ideal.rsqrt a) f = (r : EReal) := by
  obtain ⟨r, rfl⟩ := ha
  subst hz
  by_cases hr : 0 < r
  · have hc : Ideal.cmp .ogt (r : EReal) 0 = 1 := by
      unfold Ideal.cmp
      simp [EReal.coe_pos, hr]
    refine ⟨(Real.sqrt r)⁻¹, ?_⟩
    rw [Scalar.select, if_pos hc, Ideal.rsqrt_coe, if_neg (not_lt.mpr hr.le), if_neg hr.ne']
  · have hc : ¬ Ideal.cmp .ogt (r : EReal) 0 = 1 := by
      unfold Ideal.cmp
      simp [EReal.coe_pos, hr]
    rw [Scalar.select, if_neg hc]
    exact hf

open Cert.ReferenceIdeal Cert.ReferenceIdeal.Gen Cert.ReferenceIdeal.ReadP

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))

/-- The product `X · W`. -/
theorem prod_real (h0 : AllReal x0) (h2 : AllReal x2) : AllReal (val_main_v0 (F := Ideal) x0 x2) := fun i => by
  rw [val_main_v0_apply]
  exact exists_real_sum _ _ fun k => exists_real_mul (h0 _) (h2 _)

/-- The degrees. -/
theorem deg_real : AllReal (val_main_v11 (F := Ideal) x1) := by
  unfold val_main_v11
  refine scatterAdd_real _ _ _ _ (fun i => ?_) (fun i => ?_)
  · rw [val_main_v9_apply, val_main_cst_0_apply]; exact ⟨0, ofBits_zero⟩
  · rw [val_main_v8_apply, val_main_cst_apply]; exact ⟨1, ofBits_one⟩

/-- The guarded inverse square roots of the degrees. -/
theorem dis_real : AllReal (val_main_v15 (F := Ideal) x1) := fun i => by
  rw [val_main_v15_apply, val_main_v13_apply, val_main_v14_apply, Ideal.cmpf_def, Ideal.hostUnary_rsqrt_def]
  have ha := deg_real x1 i
  have hz : val_main_v12 (F := Ideal) i = 0 := by
    rw [val_main_v12_apply, val_main_cst_1_apply]; exact Ideal.ofBits_zero_f32
  have hf : ∃ r : ℝ, val_main_call0_v1 (F := Ideal) i = (r : EReal) := by
    rw [val_main_call0_v1_apply, val_main_call0_v0_apply]; exact ⟨0, ofBits_zero⟩
  generalize val_main_v11 (F := Ideal) x1 i = a at ha ⊢
  generalize val_main_v12 (F := Ideal) i = z at hz ⊢
  generalize val_main_call0_v1 (F := Ideal) i = f at hf ⊢
  exact guarded_rsqrt_real a z f ha hz hf

/-- The edge weights. -/
theorem weight_real : AllReal (val_main_v30 (F := Ideal) x1) := fun i => by
  rw [val_main_v30_apply]
  refine exists_real_mul ?_ ?_
  · unfold val_main_v22; exact gather_real _ _ _ (dis_real x1) i
  · unfold val_main_v29; exact gather_real _ _ _ (dis_real x1) i

/-- The scaled gathered rows. -/
theorem msgs_real (h0 : AllReal x0) (h2 : AllReal x2) : AllReal (val_main_v40 (F := Ideal) x0 x1 x2) := fun i => by
  rw [val_main_v40_apply]
  refine exists_real_mul ?_ ?_
  · unfold val_main_v37; exact gather_real _ _ _ (prod_real x0 x2 h0 h2) i
  · rw [val_main_v39_apply, val_main_v38_apply]; exact weight_real x1 _

/-- The aggregate. -/
theorem agg_real (h0 : AllReal x0) (h2 : AllReal x2) : AllReal (val_main_v43 (F := Ideal) x0 x1 x2) := by
  unfold val_main_v43
  refine scatterAdd_real _ _ _ _ (fun i => ?_) (msgs_real x0 x1 x2 h0 h2)
  rw [val_main_v41_apply, val_main_cst_8_apply]; exact ⟨0, ofBits_zero⟩

/-- The shifted aggregate `A + bias`. -/
theorem shifted_real (h0 : AllReal x0) (h2 : AllReal x2) (h3 : AllReal x3) : AllReal (val_main_v46 (F := Ideal) x0 x1 x2 x3) := fun i => by
  rw [val_main_v46_apply, val_main_v45_apply, val_main_v44_apply]
  exact exists_real_add (agg_real x0 x1 x2 h0 h2 i) (h3 _)

end Cert.Finite

end
-- ==== Proof.Bridge.lean ====
import proofs.«167985_j70712341561346_1_alg».proof.Proof.HostGlue
import proofs.«167985_j70712341561346_1_alg».proof.Proof.Finite

/-!
# The kernel's result is the reference's

Entry `(n, d)` of the kernel's result is the shifted aggregate `o = A + bias` at `(n, d)` normalised with the one-pass variance
of column `d`, the column's sum and sum of squares having been accumulated tile by tile from zero; the reference's is the same
entry normalised with the two-pass variance. Both aggregates are one function of the product `X · W`, which the kernel takes
block by block and the reference whole. The column's entries are real, so the two variances agree.
-/

set_option maxRecDepth 16384

noncomputable section

namespace Cert.Bridge

open Idealize.ShloMosaic Idealize.ShloMosaic.ValueIdx

/-- The kernel's result at `(n, d)`: the one-pass normalisation of the shifted aggregate's column `d`. -/
theorem kerOut_apply (X : Cert.KernelIdeal.S100000x128.Idx → EReal) (ei : IVec Cert.KernelIdeal.S2x1600000 32)
    (Wt : Cert.KernelIdeal.S128x128.Idx → EReal) (b w β : Cert.KernelIdeal.S128.Idx → EReal) (n : Fin 100000) (d : Fin 128) :
    Cert.KernelIdeal.Glue.kerOut X ei Wt b w β (ix2 n d)
      = Cert.ColumnStats.onePass (Ideal.ofBits .f32 0x47C35000#32) (Ideal.ofBits .f32 0x3727C5AC#32)
          (0 + ∑ k : Fin 100000, (Cert.ReferenceIdeal.RefValue.aggOf (Cert.KernelIdeal.Linear.prodArr X Wt) ei (ix2 k d) + b (ix1 d)))
          (0 + ∑ k : Fin 100000, (Cert.ReferenceIdeal.RefValue.aggOf (Cert.KernelIdeal.Linear.prodArr X Wt) ei (ix2 k d) + b (ix1 d))
            * (Cert.ReferenceIdeal.RefValue.aggOf (Cert.KernelIdeal.Linear.prodArr X Wt) ei (ix2 k d) + b (ix1 d)))
          (Cert.ReferenceIdeal.RefValue.aggOf (Cert.KernelIdeal.Linear.prodArr X Wt) ei (ix2 n d) + b (ix1 d)) (w (ix1 d)) (β (ix1 d)) := by
  have hb : ∀ v : Cert.KernelIdeal.S128.Idx → EReal,
      shapeCast Cert.KernelIdeal.S1x128 v Cert.KernelIdeal.Facts₀.shapeCasts_S128_S1x128 (ix2 (0 : Fin 1) d) = v (ix1 d) :=
    fun v => shapeCast_a_1a_apply v _ 0 d
  have hS : ∀ A : Cert.KernelIdeal.S100000x128.Idx → EReal,
      Cert.KernelIdeal.Stats.colSum A (shapeCast Cert.KernelIdeal.S1x128 b Cert.KernelIdeal.Facts₀.shapeCasts_S128_S1x128) (ix2 (0 : Fin 1) d)
        = 0 + ∑ k : Fin 100000, (A (ix2 k d) + b (ix1 d)) := fun A => by
    show 0 + ∑ t ∈ Finset.range 20, Cert.KernelIdeal.Stats.tileSum A _ d t = _
    rw [Cert.KernelIdeal.Stats.tiles_total]
    refine congrArg (0 + ·) (Finset.sum_congr rfl fun k _ => ?_)
    unfold Cert.KernelIdeal.Stats.shifted
    rw [hb]
  have hQ : ∀ A : Cert.KernelIdeal.S100000x128.Idx → EReal,
      Cert.KernelIdeal.Stats.colSumSq A (shapeCast Cert.KernelIdeal.S1x128 b Cert.KernelIdeal.Facts₀.shapeCasts_S128_S1x128) (ix2 (0 : Fin 1) d)
        = 0 + ∑ k : Fin 100000, (A (ix2 k d) + b (ix1 d)) * (A (ix2 k d) + b (ix1 d)) := fun A => by
    show 0 + ∑ t ∈ Finset.range 20, Cert.KernelIdeal.Stats.tileSumSq A _ d t = _
    rw [Cert.KernelIdeal.Stats.tiles_total_sq]
    refine congrArg (0 + ·) (Finset.sum_congr rfl fun k _ => ?_)
    unfold Cert.KernelIdeal.Stats.shifted
    rw [hb]
  have hmean : ∀ S : FVec Ideal Cert.KernelIdeal.S1x128 .f32, Cert.KernelIdeal.Glue.meanRow S (ix2 (0 : Fin 1) d)
      = Ideal.div (S (ix2 (0 : Fin 1) d)) (Ideal.ofBits .f32 0x47C35000#32) := fun S => rfl
  have hinv : ∀ S Q : FVec Ideal Cert.KernelIdeal.S1x128 .f32, Cert.KernelIdeal.Glue.invRow S Q (ix2 (0 : Fin 1) d)
      = Ideal.rsqrt ((Ideal.div (Q (ix2 (0 : Fin 1) d)) (Ideal.ofBits .f32 0x47C35000#32)
          - Ideal.div (S (ix2 (0 : Fin 1) d)) (Ideal.ofBits .f32 0x47C35000#32) * Ideal.div (S (ix2 (0 : Fin 1) d)) (Ideal.ofBits .f32 0x47C35000#32))
          + Ideal.ofBits .f32 0x3727C5AC#32) := fun S Q => rfl
  have hnorm : ∀ (A' : Cert.KernelIdeal.S100000x128.Idx → EReal) (b' μ s w' β' : Cert.KernelIdeal.S1x128.Idx → EReal),
      Cert.KernelIdeal.Norm.normArr A' b' μ s w' β' (ix2 n d)
        = (((A' (ix2 n d) + b' (ix2 (0 : Fin 1) d)) - μ (ix2 (0 : Fin 1) d)) * s (ix2 (0 : Fin 1) d)) * w' (ix2 (0 : Fin 1) d)
            + β' (ix2 (0 : Fin 1) d) := fun _ _ _ _ _ _ => rfl
  unfold Cert.KernelIdeal.Glue.kerOut
  rw [hnorm, hmean, hinv, hS, hQ, hb, hb, hb]
  rfl

open Cert.ReferenceIdeal Cert.ReferenceIdeal.Gen Cert.ReferenceIdeal.ReadP Cert.ReferenceIdeal.RefValue in
/-- With finite features, weight and bias the kernel's result array is the reference's. -/
theorem kernel_eq_reference (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 x4 x5 : (⟨S128, .f32⟩ : BufTy).Contents (Elt Ideal))
    (h0 : Cert.Finite.AllReal x0) (h2 : Cert.Finite.AllReal x2) (h3 : Cert.Finite.AllReal x3) :
    Cert.KernelIdeal.Glue.kerOut x0 x1 x2 x3 x4 x5 = val_main_v71 (F := Ideal) x0 x1 x2 x3 x4 x5 := by
  funext i
  obtain ⟨n, d, rfl⟩ : ∃ (n : Fin 100000) (d : Fin 128), i = ix2 n d := ⟨i 0, i 1, eq_ix2 i⟩
  rw [kerOut_apply, result_apply]
  have hx : Cert.KernelIdeal.Linear.prodArr x0 x2 = val_main_v0 (F := Ideal) x0 x2 := funext fun j => (prod_apply x0 x2 j).symm
  have ho : ∀ k : Fin 100000, aggOf (Cert.KernelIdeal.Linear.prodArr x0 x2) x1 (ix2 k d) + x3 (ix1 d)
      = val_main_v46 (F := Ideal) x0 x1 x2 x3 (ix2 k d) := fun k => by
    rw [shifted_apply, agg_eq, hx]
  simp only [ho]
  rw [Cert.ColumnStats.ofBits_1e5, zero_add, zero_add, Ideal.ofBits_zero_f32]
  exact Cert.ColumnStats.onePass_eq_twoPass 100000 (by simp) (by norm_num)
    (fun k : Fin 100000 => val_main_v46 (F := Ideal) x0 x1 x2 x3 (ix2 k d))
    (fun k => Cert.Finite.shifted_real x0 x1 x2 x3 h0 h2 h3 (ix2 k d)) _ _ _ _

end Cert.Bridge

end
-- ==== Proof.FiniteInputs.lean ====
import proofs.«167985_j70712341561346_1_alg».proof.Proof.Finite
import proofs.«167985_j70712341561346_1_alg».proof.Pre_finite_inputs
import Idealize.ShloMosaic.Lib.ReduceAll
import Idealize.ShloMosaic.Lib.ValueIdx

/-!
# The precondition gives finite inputs

The precondition is the conjunction, over the five float arguments, of "every entry's absolute value is below `+∞`"
(an `and`-reduction of the comparisons). On the extended reals `|a| < ⊤` fails at both infinities, so each entry is a real.
Only the features, the weight and the bias are needed further on.
-/

set_option maxRecDepth 16384

noncomputable section

namespace Cert.Finite

open Idealize.ShloMosaic

/-- The f32 pattern `0x7F800000` denotes `+∞`. -/
theorem ofBits_inf : Ideal.ofBits .f32 0x7F800000#32 = ⊤ := by simp [Ideal.ofBits, Ideal.ieee]

/-- An extended real whose absolute value is below `+∞` is a real. -/
theorem real_of_abs_lt (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | top => simp [Ideal.cmp] at h
  | coe r => exact ⟨r, rfl⟩

instance : Subsingleton Cert.Pre_finite_inputs.S_.Idx := ⟨fun a b => funext fun d => d.elim0⟩

open Cert.Pre_finite_inputs in
/-- Under the precondition the features, the weight and the bias hold reals only. -/
theorem inputs_real [Cert.Pre_finite_inputs.Facts] (x0 : FVec Ideal S100000x128 .f32) (x1 : IVec S2x1600000 32) (x2 : FVec Ideal S128x128 .f32)
    (x3 x4 x5 : FVec Ideal S128 .f32) (h : Cert.Pre_finite_inputs.fn (F := Ideal) x0 x1 x2 x3 x4 x5 = fun _ => 1#1) :
    AllReal x0 ∧ AllReal x2 ∧ AllReal x3 := by
  have h0 := congrFun h ValueIdx.ix0
  dsimp only [Cert.Pre_finite_inputs.fn, Cert.Pre_finite_inputs.fn_part1] at h0
  obtain ⟨h18, -⟩ := IntOp.andi_eq_one.1 h0
  obtain ⟨h13, -⟩ := IntOp.andi_eq_one.1 h18
  obtain ⟨h8, h12⟩ := IntOp.andi_eq_one.1 h13
  obtain ⟨h3, h7⟩ := IntOp.andi_eq_one.1 h8
  exact ⟨fun i => real_of_abs_lt _ (Host.reduce_andi_all _ _ _ _ _ h3 i),
    fun i => real_of_abs_lt _ (Host.reduce_andi_all _ _ _ _ _ h7 i),
    fun i => real_of_abs_lt _ (Host.reduce_andi_all _ _ _ _ _ h12 i)⟩

end Cert.Finite

end
-- ==== Proof.lean ====
/- The certificate of the graph encoder: a linear map of the features, the degree-normalised aggregation over the edge
   list (with self loops), and a batch normalisation over the nodes. The kernel computes the linear map and the two
   normalisation passes in three grid launches and leaves the aggregation to the host; the reference is plain host code.
   On the extended reals the two agree under the precondition: the block-by-block matrix product is the whole product;
   the host stretches between the launches are the reference's own operations; the column sums taken tile by tile from
   zero are the whole column sums; and the kernel's one-pass variance `Σo²/N - (Σo/N)²` is the reference's two-pass variance
   `Σ(o - Σo/N)²/N` because every entry of the shifted aggregate is a real number, whatever the edge list holds (gathers
   clamp, scatters drop, and the degree's inverse square root is taken only where the degree is positive).
   The frames of the two kernels are the generated ones; the reference's frame is its run with the result dropped; the
   ideal pass rewrote nothing. -/
import proofs.«167985_j70712341561346_1_alg».proof.Defs
import proofs.«167985_j70712341561346_1_alg».proof.Proof.Gen.Kernel
import proofs.«167985_j70712341561346_1_alg».proof.Proof.Gen.Kernel.Skeleton
import proofs.«167985_j70712341561346_1_alg».proof.Proof.Gen.Kernel.Launch
import proofs.«167985_j70712341561346_1_alg».proof.Proof.Gen.Kernel.Points
import proofs.«167985_j70712341561346_1_alg».proof.Proof.Gen.Kernel.Frame
import proofs.«167985_j70712341561346_1_alg».proof.Proof.Gen.KernelIdeal
import proofs.«167985_j70712341561346_1_alg».proof.Proof.Gen.KernelIdeal.Skeleton
import proofs.«167985_j70712341561346_1_alg».proof.Proof.Gen.KernelIdeal.Launch
import proofs.«167985_j70712341561346_1_alg».proof.Proof.Gen.KernelIdeal.Points
import proofs.«167985_j70712341561346_1_alg».proof.Proof.Gen.KernelIdeal.Frame
import proofs.«167985_j70712341561346_1_alg».proof.Proof.Gen.ReferenceIdeal
import proofs.«167985_j70712341561346_1_alg».proof.Proof.Gen.Pre_finite_inputs
import proofs.«167985_j70712341561346_1_alg».proof.Proof.Bridge
import proofs.«167985_j70712341561346_1_alg».proof.Proof.FiniteInputs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs end with the same result array: the kernel's run read as one function of the arguments, the
    reference's run read at an index, and the two functions equal under the precondition. -/
theorem algebraic : Cert.algebraic_KernelIdeal_ReferenceIdeal := by
  intro m ρ m' ρ' hpre hagree
  refine ⟨fun c => Cert.KernelIdeal.Glue.kerOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Glue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h2, h3⟩ := Cert.Finite.inputs_real _ _ _ _ _ _ (hpre c)
  rw [Cert.ReferenceIdeal.ReadP.val_main_v71_eq, (hagree c).1, (hagree c).2.1, (hagree c).2.2.1, (hagree c).2.2.2.1,
    (hagree c).2.2.2.2.1, (hagree c).2.2.2.2.2]
  exact (Cert.Bridge.kernel_eq_reference _ _ _ _ _ _ h0 h2 h3).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
